-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x500000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x1 : Shape := ⟨2, ![50000, 1]⟩
abbrev S5000x128 : Shape := ⟨2, ![5000, 128]⟩
abbrev S5000x1 : Shape := ⟨2, ![5000, 1]⟩
abbrev S550000x128 : Shape := ⟨2, ![550000, 128]⟩
abbrev S1x128 : Shape := ⟨2, ![1, 128]⟩

abbrev nBuf : Space → Nat
  | .hbm => 44
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x500000, .i32⟩
  | .hbm, ⟨6, _⟩ => ⟨S500000, .i32⟩
  | .hbm, ⟨7, _⟩ => ⟨S550000, .i32⟩
  | .hbm, ⟨8, _⟩ => ⟨S1x500000, .i32⟩
  | .hbm, ⟨9, _⟩ => ⟨S500000, .i32⟩
  | .hbm, ⟨10, _⟩ => ⟨S550000, .i32⟩
  | .hbm, ⟨11, _⟩ => ⟨S_, .f32⟩
  | .hbm, ⟨12, _⟩ => ⟨S550000, .f32⟩
  | .hbm, ⟨13, _⟩ => ⟨S_, .f32⟩
  | .hbm, ⟨14, _⟩ => ⟨S50000, .f32⟩
  | .hbm, ⟨15, _⟩ => ⟨S550000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x128, .f32⟩
  | .hbm, ⟨23, _⟩ => ⟨S_, .i32⟩
  | .hbm, ⟨24, _⟩ => ⟨S550000, .i32⟩
  | .hbm, ⟨25, _⟩ => ⟨S550000, .i1⟩
  | .hbm, ⟨26, _⟩ => ⟨S_, .i32⟩
  | .hbm, ⟨27, _⟩ => ⟨S550000, .i32⟩
  | .hbm, ⟨28, _⟩ => ⟨S550000, .i32⟩
  | .hbm, ⟨29, _⟩ => ⟨S550000, .i32⟩
  | .hbm, ⟨30, _⟩ => ⟨S550000x1, .i32⟩
  | .hbm, ⟨31, _⟩ => ⟨S550000x128, .f32⟩
  | .hbm, ⟨32, _⟩ => ⟨S_, .f32⟩
  | .hbm, ⟨33, _⟩ => ⟨S50000x128, .f32⟩
  | .hbm, ⟨34, _⟩ => ⟨S550000x1, .i32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_cst : Ref sig .tc := ⟨.hbm, 41, rfl⟩
abbrev main_call0_v0 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S550000x1_S550000_n_0_0_1_wf : ScatterDims.WF S50000 S550000x1 S550000 [] [0] [0] 1
  dot_S5000x128_S128x128_S5000x128_1_0_0_1_n_n_wf : DotDims.WF S5000x128 S128x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x500000, .i32⟩
  | .hbm, ⟨6, _⟩ => ⟨S500000, .i32⟩
  | .hbm, ⟨7, _⟩ => ⟨S550000, .i32⟩
  | .hbm, ⟨8, _⟩ => ⟨S1x500000, .i32⟩
  | .hbm, ⟨9, _⟩ => ⟨S500000, .i32⟩
  | .hbm, ⟨10, _⟩ => ⟨S550000, .i32⟩
  | .hbm, ⟨11, _⟩ => ⟨S_, .f32⟩
  | .hbm, ⟨12, _⟩ => ⟨S550000, .f32⟩
  | .hbm, ⟨13, _⟩ => ⟨S_, .f32⟩
  | .hbm, ⟨14, _⟩ => ⟨S50000, .f32⟩
  | .hbm, ⟨15, _⟩ => ⟨S550000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S550000, .i32⟩
  | .hbm, ⟨27, _⟩ => ⟨S550000, .i1⟩
  | .hbm, ⟨28, _⟩ => ⟨S_, .i32⟩
  | .hbm, ⟨29, _⟩ => ⟨S550000, .i32⟩
  | .hbm, ⟨30, _⟩ => ⟨S550000, .i32⟩
  | .hbm, ⟨31, _⟩ => ⟨S550000, .i32⟩
  | .hbm, ⟨32, _⟩ => ⟨S550000x1, .i32⟩
  | .hbm, ⟨33, _⟩ => ⟨S550000, .f32⟩
  | .hbm, ⟨34, _⟩ => ⟨S_, .i32⟩
  | .hbm, ⟨35, _⟩ => ⟨S550000, .i32⟩
  | .hbm, ⟨36, _⟩ => ⟨S550000, .i1⟩
  | .hbm, ⟨37, _⟩ => ⟨S_, .i32⟩
  | .hbm, ⟨38, _⟩ => ⟨S550000, .i32⟩
  | .hbm, ⟨39, _⟩ => ⟨S550000, .i32⟩
  | .hbm, ⟨40, _⟩ => ⟨S550000, .i32⟩
  | .hbm, ⟨41, _⟩ => ⟨S550000x1, .i32⟩
  | .hbm, ⟨42, _⟩ => ⟨S550000, .f32⟩
  | .hbm, ⟨43, _⟩ => ⟨S550000, .f32⟩
  | .hbm, ⟨44, _⟩ => ⟨S50000x128, .f32⟩
  | .hbm, ⟨45, _⟩ => ⟨S_, .i32⟩
  | .hbm, ⟨46, _⟩ => ⟨S550000, .i32⟩
  | .hbm, ⟨47, _⟩ => ⟨S550000, .i1⟩
  | .hbm, ⟨48, _⟩ => ⟨S_, .i32⟩
  | .hbm, ⟨49, _⟩ => ⟨S550000, .i32⟩
  | .hbm, ⟨50, _⟩ => ⟨S550000, .i32⟩
  | .hbm, ⟨51, _⟩ => ⟨S550000, .i32⟩
  | .hbm, ⟨52, _⟩ => ⟨S550000x1, .i32⟩
  | .hbm, ⟨53, _⟩ => ⟨S550000x128, .f32⟩
  | .hbm, ⟨54, _⟩ => ⟨S550000x1, .f32⟩
  | .hbm, ⟨55, _⟩ => ⟨S550000x128, .f32⟩
  | .hbm, ⟨56, _⟩ => ⟨S550000x128, .f32⟩
  | .hbm, ⟨57, _⟩ => ⟨S_, .f32⟩
  | .hbm, ⟨58, _⟩ => ⟨S50000x128, .f32⟩
  | .hbm, ⟨59, _⟩ => ⟨S550000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x128_S128x128_S50000x128_1_0_0_1_n_n_wf : DotDims.WF S50000x128 S128x128 S50000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

class Facts : Prop extends Facts₀ where

variable [Facts]
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.Graph.lean ====
/-
  A graph convolution with self-loops and symmetric degree normalization, as two formulas over the extended
  reals, and the proof that they agree.

  The graph has 50000 nodes and 550000 edges; edge `e` goes from node `src e` to node `dst e`, both given as
  32-bit words. Node `n`'s in-edges are `hit dst n`: the edges whose target word, read signed, is `n` (a word
  outside `[0, 50000)` names no node and the edge is dropped). The degree `deg dst n` is their number, and the
  normalizer is `1 / sqrt (deg n)`, spelt two ways: `rsqrt (max (deg n) 1)` (`dinvK`) and
  `if deg n > 0 then rsqrt (deg n) else 0` (`dinvR`). A source word is turned into a row by wrapping a negative
  word by 50000 and clamping into `[0, 49999]` (`rowOf`).

  With `P = x · W` (`prod`), the two formulas for entry `(n, j)` of the result are
    outK:  relu ( dinvK n · Σ_{e → n} (P (row e) j · dinvK (row e)) + b j )
    outR:  relu ( Σ_{e → n} P (row e) j · (dinvR (row e) · dinvR (row' e)) + b j ),   row' e the row of `dst e`.
  They agree when every node has an in-edge (so every degree is at least one and both spellings of the normalizer
  are the same positive real) and the entries of `x` and `W` are real (so every term of the sums is real, and
  the factor `dinv n`, constant over the in-edges of `n` because `row' e = n` there, moves across the sum).
-/
import Idealize.ShloMosaic.PureOps.Ideal
import Idealize.ShloMosaic.PureOps.Ideal.Laws
import Idealize.ShloMosaic.Lib.ValueIdx
import proofs.«175548_j73203422593428_2_alg».proof.Proof.LibSegment

noncomputable section

open scoped BigOperators

namespace Cert.Graph

open Idealize.ShloMosaic Idealize.ShloMosaic.ValueIdx Cert.LibSegment

/-! ## The two formulas -/

/-- The in-edges of node `n`: the edges whose target word, read signed, is `n`. -/
def hit (dst : Fin 550000 → BitVec 32) (n : Fin 50000) : Finset (Fin 550000) :=
  Finset.univ.filter (fun e => (dst e).toInt = (n.val : Int))

/-- The degree: zero plus one per in-edge. -/
def deg (dst : Fin 550000 → BitVec 32) (n : Fin 50000) : EReal :=
  Ideal.ofBits .f32 0x00000000#32 + ∑ _e ∈ hit dst n, Ideal.ofBits .f32 0x3F800000#32

/-- A node word with a negative value wrapped around by the number of nodes. -/
def wrap (v : BitVec 32) : BitVec 32 := Scalar.select (IntOp.cmpi .slt v 0#32) (IntOp.addi v 50000#32) v

/-- The row a node word reads: wrapped, then clamped into `[0, 49999]`. -/
def rowOf (v : BitVec 32) : Fin 50000 := clampRow 50000 (Nat.succ_pos _) (wrap v)

/-- Entry `(p, j)` of the product `x · W`. -/
def prod (x : (⟨2, ![50000, 128]⟩ : Shape).Idx → EReal) (W : (⟨2, ![128, 128]⟩ : Shape).Idx → EReal)
    (p : Fin 50000) (j : Fin 128) : EReal :=
  ∑ k : Fin 128, x (ix2 p k) * W (ix2 k j)

/-- The normalizer, spelt with a maximum against one. -/
def dinvK (dst : Fin 550000 → BitVec 32) (p : Fin 50000) : EReal :=
  Ideal.rsqrt (max (deg dst p) (Ideal.ofBits .f32 0x3F800000#32))

/-- The normalizer, spelt with a test against zero. -/
def dinvR (dst : Fin 550000 → BitVec 32) (p : Fin 50000) : EReal :=
  Scalar.select (Ideal.cmp .ogt (deg dst p) (Ideal.ofBits .f32 0x00000000#32)) (Ideal.rsqrt (deg dst p))
    (Ideal.ofBits .f32 0x00000000#32)

/-- The first formula: the target's normalizer outside the sum, the source's folded into the summand. -/
def outK (x : (⟨2, ![50000, 128]⟩ : Shape).Idx → EReal) (W : (⟨2, ![128, 128]⟩ : Shape).Idx → EReal)
    (b : (⟨1, ![128]⟩ : Shape).Idx → EReal) (src dst : Fin 550000 → BitVec 32) (n : Fin 50000) (j : Fin 128) : EReal :=
  max (dinvK dst n * (Ideal.ofBits .f32 0x00000000#32
      + ∑ e ∈ hit dst n, prod x W (rowOf (src e)) j * dinvK dst (rowOf (src e))) + b (ix1 j))
    (Ideal.ofBits .f32 0x00000000#32)

/-- The second formula: both normalizers inside the sum, one weight per edge. -/
def outR (x : (⟨2, ![50000, 128]⟩ : Shape).Idx → EReal) (W : (⟨2, ![128, 128]⟩ : Shape).Idx → EReal)
    (b : (⟨1, ![128]⟩ : Shape).Idx → EReal) (src dst : Fin 550000 → BitVec 32) (n : Fin 50000) (j : Fin 128) : EReal :=
  max ((Ideal.ofBits .f32 0x00000000#32
      + ∑ e ∈ hit dst n, prod x W (rowOf (src e)) j * (dinvR dst (rowOf (src e)) * dinvR dst (rowOf (dst e))))
      + b (ix1 j))
    (Ideal.ofBits .f32 0x00000000#32)

/-! ## Sums of reals inside the extended reals -/

/-- A finite sum of reals, read in the extended reals, is the sum of the readings. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The word of the float one is one. -/
theorem one_word : Ideal.ofBits .f32 0x3F800000#32 = 1 := by
  simp [Ideal.ofBits, Ideal.ieee, -EReal.coe_mul]; norm_num

/-! ## The degree and the normalizer -/

/-- The degree is the number of in-edges. -/
theorem deg_eq (dst : Fin 550000 → BitVec 32) (n : Fin 50000) : deg dst n = (((hit dst n).card : ℝ) : EReal) := by
  unfold deg
  rw [Ideal.ofBits_zero_f32, one_word, zero_add, ← EReal.coe_one, ← coe_sum, Finset.sum_const, nsmul_eq_mul, mul_one]

/-- The normalizer as a real. -/
def dinvReal (dst : Fin 550000 → BitVec 32) (p : Fin 50000) : ℝ := (Real.sqrt ((hit dst p).card : ℝ))⁻¹

theorem card_pos_real (dst : Fin 550000 → BitVec 32) (p : Fin 50000) (h : (hit dst p).Nonempty) :
    (1 : ℝ) ≤ ((hit dst p).card : ℝ) := by
  exact_mod_cast Finset.card_pos.mpr h

/-- `rsqrt` of a positive real is the real `1 / sqrt`. -/
theorem rsqrt_coe_pos (r : ℝ) (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

theorem dinvK_eq (dst : Fin 550000 → BitVec 32) (p : Fin 50000) (h : (hit dst p).Nonempty) :
    dinvK dst p = (dinvReal dst p : EReal) := by
  have h1 := card_pos_real dst p h
  unfold dinvK dinvReal
  rw [deg_eq, one_word, max_eq_left (by rw [← EReal.coe_one]; exact EReal.coe_le_coe_iff.mpr h1)]
  exact rsqrt_coe_pos _ (by linarith)

theorem dinvR_eq (dst : Fin 550000 → BitVec 32) (p : Fin 50000) (h : (hit dst p).Nonempty) :
    dinvR dst p = (dinvReal dst p : EReal) := by
  have h1 := card_pos_real dst p h
  unfold dinvR dinvReal
  rw [deg_eq, Ideal.ofBits_zero_f32]
  have hc : Ideal.cmp .ogt (((hit dst p).card : ℝ) : EReal) 0 = 1#1 := by
    show BitVec.ofBool (decide ((0 : EReal) < (((hit dst p).card : ℝ) : EReal))) = 1#1
    rw [decide_eq_true (by rw [← EReal.coe_zero]; exact EReal.coe_lt_coe_iff.mpr (by linarith))]
    rfl
  rw [hc, select_one]
  exact rsqrt_coe_pos _ (by linarith)

/-! ## Rows -/

/-- A word whose signed value is the node `n` reads row `n`. -/
theorem rowOf_of_toInt (v : BitVec 32) (n : Fin 50000) (h : v.toInt = (n.val : Int)) : rowOf v = n := by
  have hn := n.isLt
  have hw : wrap v = v := by
    unfold wrap
    have : IntOp.cmpi .slt v 0#32 = 0#1 := by
      show BitVec.ofBool (v.slt 0#32) = 0#1
      have : v.slt 0#32 = false := by
        rw [BitVec.slt_eq_decide]
        simp only [decide_eq_false_iff_not, not_lt]
        rw [h]; simp
      rw [this]; rfl
    rw [this, select_zero]
  unfold rowOf clampRow
  rw [hw]
  apply Fin.ext
  show min v.toInt.toNat (50000 - 1) = n.val
  rw [h]
  simp only [Int.toNat_natCast]
  omega

/-! ## The two formulas agree -/

theorem outK_eq_outR (x : (⟨2, ![50000, 128]⟩ : Shape).Idx → EReal) (W : (⟨2, ![128, 128]⟩ : Shape).Idx → EReal)
    (b : (⟨1, ![128]⟩ : Shape).Idx → EReal) (src dst : Fin 550000 → BitVec 32)
    (hx : ∀ i, ∃ r : ℝ, x i = (r : EReal)) (hW : ∀ i, ∃ r : ℝ, W i = (r : EReal))
    (hself : ∀ p : Fin 50000, (hit dst p).Nonempty) (n : Fin 50000) (j : Fin 128) :
    outK x W b src dst n j = outR x W b src dst n j := by
  choose xr hxr using hx
  choose Wr hWr using hW
  have hprod : ∀ p : Fin 50000, prod x W p j = ((∑ k : Fin 128, xr (ix2 p k) * Wr (ix2 k j) : ℝ) : EReal) := by
    intro p
    unfold prod
    rw [coe_sum]
    exact Finset.sum_congr rfl (fun k _ => by rw [hxr, hWr, EReal.coe_mul])
  have hL : ∀ e ∈ hit dst n, prod x W (rowOf (src e)) j * dinvK dst (rowOf (src e))
      = (((∑ k : Fin 128, xr (ix2 (rowOf (src e)) k) * Wr (ix2 k j)) * dinvReal dst (rowOf (src e)) : ℝ) : EReal) := by
    intro e _
    rw [hprod, dinvK_eq dst _ (hself _), EReal.coe_mul]
  have hR : ∀ e ∈ hit dst n, prod x W (rowOf (src e)) j * (dinvR dst (rowOf (src e)) * dinvR dst (rowOf (dst e)))
      = (((∑ k : Fin 128, xr (ix2 (rowOf (src e)) k) * Wr (ix2 k j))
          * (dinvReal dst (rowOf (src e)) * dinvReal dst n) : ℝ) : EReal) := by
    intro e he
    have hrow : rowOf (dst e) = n := rowOf_of_toInt _ _ (Finset.mem_filter.mp he).2
    rw [hprod, dinvR_eq dst _ (hself _), hrow, dinvR_eq dst n (hself n), EReal.coe_mul, EReal.coe_mul]
  have hAB : dinvK dst n * (Ideal.ofBits .f32 0x00000000#32
        + ∑ e ∈ hit dst n, prod x W (rowOf (src e)) j * dinvK dst (rowOf (src e)))
      = Ideal.ofBits .f32 0x00000000#32
        + ∑ e ∈ hit dst n, prod x W (rowOf (src e)) j * (dinvR dst (rowOf (src e)) * dinvR dst (rowOf (dst e))) := by
    rw [Ideal.ofBits_zero_f32, zero_add, zero_add, dinvK_eq dst n (hself n),
      Finset.sum_congr rfl hL, Finset.sum_congr rfl hR, ← coe_sum, ← coe_sum, ← EReal.coe_mul]
    refine congrArg (fun r : ℝ => (r : EReal)) ?_
    rw [Finset.mul_sum]
    exact Finset.sum_congr rfl (fun e _ => by ring)
  unfold outK outR
  rw [hAB]

end Cert.Graph

end
-- ==== Proof.Ends.lean ====
/-
  The edge list with self-loops, read at an edge.

  The 550000 edges are the 500000 given ones followed by one self-loop per node: an end (source, row 0 of the edge
  array; or target, row 1) of edge `e` is the given word for `e < 500000` and the node `e - 500000` itself after
  that. Both programs build each end as a row slice of the `[2, 500000]` edge array, flattened, joined to the
  node numbering `0 … 49999`; `concat_apply` reads the join at an edge and `row_apply` the flattened row slice.
-/
import Idealize.ShloMosaic.Lib.Pipeline.Value
import Idealize.ShloMosaic.Lib.ValueIdx

noncomputable section

namespace Cert.Ends

open Idealize.ShloMosaic Idealize.ShloMosaic.ValueIdx

/-- End `r` (0 the source, 1 the target) of edge `e`, as a word. -/
def ends (r : Fin 2) (ei : (⟨2, ![2, 500000]⟩ : Shape).Idx → BitVec 32) (e : Fin 550000) : BitVec 32 :=
  if h : e.val < 500000 then ei (ix2 r ⟨e.val, h⟩) else BitVec.ofNat 32 (e.val - 500000)

/-- The join of 500000 given words and the node numbering, read at edge `e`. -/
theorem concat_apply (a : (⟨1, ![500000]⟩ : Shape).Idx → BitVec 32)
    (hcat : Shape.Concatenates [(⟨1, ![500000]⟩ : Shape), ⟨1, ![50000]⟩] ⟨1, ![550000]⟩ 0) (e : Fin 550000) :
    concatenate (⟨1, ![550000]⟩ : Shape) 0
        [⟨(⟨1, ![500000]⟩ : Shape), a⟩, ⟨(⟨1, ![50000]⟩ : Shape), iotaInDim (⟨1, ![50000]⟩ : Shape) 32 0⟩] hcat (ix1 e)
      = if h : e.val < 500000 then a (ix1 ⟨e.val, h⟩) else BitVec.ofNat 32 (e.val - 500000) := by
  by_cases h : e.val < 500000
  · rw [dif_pos h]
    exact concatenate_pair_apply_left 0 a _ hcat (ix1 e) rfl (ix1 ⟨e.val, h⟩) (fun b => by
      obtain rfl : b = 0 := Subsingleton.elim _ _
      rfl)
  · rw [dif_neg h]
    have he := e.isLt
    have hk : e.val - 500000 < 50000 := by omega
    refine (concatenate_pair_apply_right 0 a _ hcat (ix1 e) rfl rfl (ix1 ⟨e.val - 500000, hk⟩) (fun b hb => ?_) ?_).trans rfl
    · obtain rfl : b = 0 := Subsingleton.elim _ _
      exact absurd rfl hb
    · show e.val - 500000 + 500000 = e.val
      omega

/-- Row `o` of the edge array, flattened, read at `k`. -/
theorem row_apply (o : Nat) (ho : o < 2) (ei : (⟨2, ![2, 500000]⟩ : Shape).Idx → BitVec 32)
    (hs : (⟨2, ![2, 500000]⟩ : Shape).Slices ![o, 0] ⟨2, ![1, 500000]⟩)
    (hc : (⟨2, ![1, 500000]⟩ : Shape).ShapeCasts ⟨1, ![500000]⟩) (k : Fin 500000) :
    shapeCast (⟨1, ![500000]⟩ : Shape) (extractStridedSlice (⟨2, ![1, 500000]⟩ : Shape) ![o, 0] ei hs) hc (ix1 k)
      = ei (ix2 (⟨o, ho⟩ : Fin 2) k) := by
  have hk := k.isLt
  refine (shapeCast_apply _ hc (ix1 k) (ix2 (⟨0, Nat.one_pos⟩ : Fin 1) k) ?_).trans ?_
  · rewrite [Shape.rowMajor_val_two, Shape.rowMajor_val_one]
    show 0 * 500000 + k.val = k.val
    omega
  · exact extractStridedSlice_apply ![o, 0] ei hs _ (ix2 (⟨o, ho⟩ : Fin 2) k) (fun a => match a with
      | ⟨0, _⟩ => by show o = o + 0; omega
      | ⟨1, _⟩ => by show k.val = 0 + k.val; omega)

/-- End `o` of the edge list as the programs build it. -/
theorem ends_eq (o : Nat) (ho : o < 2) (ei : (⟨2, ![2, 500000]⟩ : Shape).Idx → BitVec 32)
    (hs : (⟨2, ![2, 500000]⟩ : Shape).Slices ![o, 0] ⟨2, ![1, 500000]⟩)
    (hc : (⟨2, ![1, 500000]⟩ : Shape).ShapeCasts ⟨1, ![500000]⟩)
    (hcat : Shape.Concatenates [(⟨1, ![500000]⟩ : Shape), ⟨1, ![50000]⟩] ⟨1, ![550000]⟩ 0) (e : Fin 550000) :
    concatenate (⟨1, ![550000]⟩ : Shape) 0
        [⟨(⟨1, ![500000]⟩ : Shape), shapeCast (⟨1, ![500000]⟩ : Shape)
            (extractStridedSlice (⟨2, ![1, 500000]⟩ : Shape) ![o, 0] ei hs) hc⟩,
          ⟨(⟨1, ![50000]⟩ : Shape), iotaInDim (⟨1, ![50000]⟩ : Shape) 32 0⟩] hcat (ix1 e)
      = ends ⟨o, ho⟩ ei e := by
  rw [concat_apply]
  unfold ends
  by_cases h : e.val < 500000
  · rw [dif_pos h, dif_pos h, row_apply o ho]
  · rw [dif_neg h, dif_neg h]

/-- The target end of the self-loop of node `n` is `n`. -/
theorem ends_loop (r : Fin 2) (ei : (⟨2, ![2, 500000]⟩ : Shape).Idx → BitVec 32) (n : Fin 50000) :
    (ends r ei ⟨500000 + n.val, by have := n.isLt; omega⟩).toInt = (n.val : Int) := by
  have hn := n.isLt
  unfold ends
  rw [dif_neg (by show ¬ (500000 + n.val < 500000); omega)]
  show (BitVec.ofNat 32 (500000 + n.val - 500000)).toInt = (n.val : Int)
  rw [Nat.add_sub_cancel_left]
  have h1 : (BitVec.ofNat 32 n.val).toNat = n.val := by
    rw [BitVec.toNat_ofNat]; exact Nat.mod_eq_of_lt (Nat.lt_of_lt_of_le hn (by norm_num))
  rw [BitVec.toInt_eq_toNat_cond, h1, if_pos (Nat.lt_of_lt_of_le (by omega : 2 * n.val < 100000) (by norm_num))]

end Cert.Ends

end
-- ==== Proof.RefValue.lean ====
/-
  The reference's result, read at an entry, is the second formula of the graph convolution (`Graph.outR`).

  Stage by stage: both ends of the edge list are the joins of a row of the edge array with the node numbering
  (`Ends.ends`); the degree is the float scatter-add of ones at the target ends; the normalizer is the guarded
  reciprocal square root of the degree; the per-edge weight is the normalizer picked at the wrapped and clamped source
  times the one picked at the wrapped and clamped target; a message is the row of `x · W` picked at the source, times
  the weight; the aggregate is the scatter-add of the messages at the target ends; bias and a maximum with zero close.
-/
import proofs.«175548_j73203422593428_2_alg».proof.Proof.RefRead
import proofs.«175548_j73203422593428_2_alg».proof.Proof.LibSegment
import proofs.«175548_j73203422593428_2_alg».proof.Proof.Graph
import proofs.«175548_j73203422593428_2_alg».proof.Proof.Ends

noncomputable section

open scoped BigOperators

namespace Cert.ReferenceIdeal.RefValue

open Cert.ReferenceIdeal Cert.ReferenceIdeal.ReadP Cert.ReferenceIdeal.Facts₀
open Idealize.ShloMosaic Idealize.ShloMosaic.ValueIdx Cert.LibSegment Cert.Graph Cert.Ends

variable (x0 : (⟨S50000x128, .f32⟩ : BufTy).Contents (Elt Ideal)) (x1 : (⟨S2x500000, .i32⟩ : BufTy).Contents (Elt Ideal))
  (x2 : (⟨S128x128, .f32⟩ : BufTy).Contents (Elt Ideal)) (x3 : (⟨S128, .f32⟩ : BufTy).Contents (Elt Ideal))

/-! ## The edge list -/

theorem src_eq (e : Fin 550000) : val_main_v3 (F := Ideal) x1 (ix1 e) = ends 0 x1 e := by
  unfold val_main_v3 val_main_v2 val_main_v1 val_main_v0
  exact ends_eq 0 (by decide) x1 _ _ _ e

theorem dst_eq (e : Fin 550000) : val_main_v6 (F := Ideal) x1 (ix1 e) = ends 1 x1 e := by
  unfold val_main_v6 val_main_v5 val_main_v4 val_main_v0
  exact ends_eq 1 (by decide) x1 _ _ _ e

/-- An entry `(e, 0)` of a column of per-edge words is the word of edge `e`. -/
theorem col9 (e : Fin 550000) : idx_main_v9 (colIdx e) = ix1 e := funext fun a => match a with | ⟨0, _⟩ => rfl
theorem col20 (e : Fin 550000) : idx_main_v20 (colIdx e) = ix1 e := funext fun a => match a with | ⟨0, _⟩ => rfl
theorem col27 (e : Fin 550000) : idx_main_v27 (colIdx e) = ix1 e := funext fun a => match a with | ⟨0, _⟩ => rfl
theorem col36 (e : Fin 550000) : idx_main_v36 (colIdx e) = ix1 e := funext fun a => match a with | ⟨0, _⟩ => rfl
theorem col42 (e : Fin 550000) : idx_main_v42 (colIdx e) = ix1 e := funext fun a => match a with | ⟨0, _⟩ => rfl

/-! ## The degree and the normalizer -/

theorem deg_eq (p : Fin 50000) : val_main_v10 (F := Ideal) x1 (ix1 p) = deg (ends 1 x1) p := by
  unfold val_main_v10
  refine (hostScatterAdd_entries_apply scatter_S50000_S550000x1_S550000_n_0_0_1_wf _ _ _ p).trans ?_
  have h0 : val_main_v8 (F := Ideal) (ix1 p) = Ideal.ofBits .f32 0x00000000#32 :=
    (val_main_v8_apply _).trans (val_main_cst_0_apply _)
  have h1 : ∀ e : Fin 550000, val_main_v7 (F := Ideal) (ix1 e) = Ideal.ofBits .f32 0x3F800000#32 :=
    fun e => (val_main_v7_apply _).trans (val_main_cst_apply _)
  have h9 : ∀ e : Fin 550000, val_main_v9 (F := Ideal) x1 (colIdx e) = ends 1 x1 e := fun e => by
    rw [val_main_v9_apply, col9, dst_eq]
  have hf : (Finset.univ.filter fun e : Fin 550000 => (val_main_v9 (F := Ideal) x1 (colIdx e)).toInt = (p.val : Int))
      = hit (ends 1 x1) p := Finset.filter_congr (fun e _ => by rw [h9 e])
  unfold deg
  exact congrArg₂ (· + ·) h0 (Finset.sum_congr hf (fun e _ => h1 e))

theorem dinv_eq (p : Fin 50000) : val_main_v14 (F := Ideal) x1 (ix1 p) = dinvR (ends 1 x1) p := by
  rw [val_main_v14_apply, val_main_v12_apply, val_main_v13_apply, deg_eq, val_main_v11_apply, val_main_cst_1_apply,
    val_main_call0_v1_apply, val_main_call0_v0_apply, val_main_cst_2_apply]
  unfold dinvR
  simp only [Ideal.cmpf_def, Ideal.hostUnary_rsqrt_def, Ideal.ofBits_def]

/-! ## The wrapped node words -/

theorem wrap19 (e : Fin 550000) : val_main_v19 (F := Ideal) x1 (ix1 e) = wrap (ends 0 x1 e) := by
  rw [val_main_v19_apply, val_main_v16_apply, val_main_v18_apply, src_eq, val_main_v15_apply, val_main_c_apply,
    val_main_v17_apply, val_main_c_3_apply]
  rfl

theorem wrap26 (e : Fin 550000) : val_main_v26 (F := Ideal) x1 (ix1 e) = wrap (ends 1 x1 e) := by
  rw [val_main_v26_apply, val_main_v23_apply, val_main_v25_apply, dst_eq, val_main_v22_apply, val_main_c_4_apply,
    val_main_v24_apply, val_main_c_5_apply]
  rfl

theorem wrap35 (e : Fin 550000) : val_main_v35 (F := Ideal) x1 (ix1 e) = wrap (ends 0 x1 e) := by
  rw [val_main_v35_apply, val_main_v32_apply, val_main_v34_apply, src_eq, val_main_v31_apply, val_main_c_6_apply,
    val_main_v33_apply, val_main_c_7_apply]
  rfl

/-! ## The per-edge weight, the product, the messages -/

theorem norm_eq (e : Fin 550000) : val_main_v29 (F := Ideal) x1 (ix1 e)
    = dinvR (ends 1 x1) (rowOf (ends 0 x1 e)) * dinvR (ends 1 x1) (rowOf (ends 1 x1 e)) := by
  have g1 : val_main_v21 (F := Ideal) x1 (ix1 e) = dinvR (ends 1 x1) (rowOf (ends 0 x1 e)) := by
    unfold val_main_v21
    refine (gather_entries_apply (Nat.succ_pos _) gather_S50000_S550000x1_S550000_n_0_n_n_0_1_1_wf _ _ e).trans ?_
    rw [val_main_v20_apply, col20, wrap19]
    exact dinv_eq x1 _
  have g2 : val_main_v28 (F := Ideal) x1 (ix1 e) = dinvR (ends 1 x1) (rowOf (ends 1 x1 e)) := by
    unfold val_main_v28
    refine (gather_entries_apply (Nat.succ_pos _) gather_S50000_S550000x1_S550000_n_0_n_n_0_1_1_wf _ _ e).trans ?_
    rw [val_main_v27_apply, col27, wrap26]
    exact dinv_eq x1 _
  rw [val_main_v29_apply, g1, g2]
  rfl

theorem xw_eq (p : Fin 50000) (j : Fin 128) : val_main_v30 (F := Ideal) x0 x2 (ix2 p j) = prod x0 x2 p j := by
  rw [val_main_v30_apply]
  unfold prod
  refine Finset.sum_congr rfl (fun k _ => ?_)
  have hl : lidx_main_v30 (ix2 p j) k = ix2 p k := funext fun a => match a with | ⟨0, _⟩ => rfl | ⟨1, _⟩ => rfl
  have hr : ridx_main_v30 (ix2 p j) k = ix2 k j := funext fun a => match a with | ⟨0, _⟩ => rfl | ⟨1, _⟩ => rfl
  rw [hl, hr]

theorem msg_eq (e : Fin 550000) (j : Fin 128) : val_main_v40 (F := Ideal) x0 x1 x2 (ix2 e j)
    = prod x0 x2 (rowOf (ends 0 x1 e)) j
      * (dinvR (ends 1 x1) (rowOf (ends 0 x1 e)) * dinvR (ends 1 x1) (rowOf (ends 1 x1 e))) := by
  have g1 : val_main_v37 (F := Ideal) x0 x1 x2 (ix2 e j) = prod x0 x2 (rowOf (ends 0 x1 e)) j := by
    unfold val_main_v37
    refine (gather_rows_apply (Nat.succ_pos _) gather_S50000x128_S550000x1_S550000x128_1_0_n_n_0_1_1128_wf _ _ e j).trans ?_
    rw [val_main_v36_apply, col36, wrap35]
    exact xw_eq x0 x2 _ j
  have hi : idx_main_v38 (idx_main_v39 (ix2 e j)) = ix1 e := funext fun a => match a with | ⟨0, _⟩ => rfl
  have g2 : val_main_v39 (F := Ideal) x1 (ix2 e j)
      = dinvR (ends 1 x1) (rowOf (ends 0 x1 e)) * dinvR (ends 1 x1) (rowOf (ends 1 x1 e)) := by
    rw [val_main_v39_apply, val_main_v38_apply, hi, norm_eq]
  rw [val_main_v40_apply, g1, g2]
  rfl

/-! ## The aggregate and the result -/

theorem agg_eq (n : Fin 50000) (j : Fin 128) : val_main_v43 (F := Ideal) x0 x1 x2 (ix2 n j)
    = Ideal.ofBits .f32 0x00000000#32 + ∑ e ∈ hit (ends 1 x1) n, prod x0 x2 (rowOf (ends 0 x1 e)) j
        * (dinvR (ends 1 x1) (rowOf (ends 0 x1 e)) * dinvR (ends 1 x1) (rowOf (ends 1 x1 e))) := by
  unfold val_main_v43
  refine (hostScatterAdd_rows_apply scatter_S50000x128_S550000x1_S550000x128_1_0_0_1_wf _ _ _ n j).trans ?_
  have h0 : val_main_v41 (F := Ideal) (ix2 n j) = Ideal.ofBits .f32 0x00000000#32 :=
    (val_main_v41_apply _).trans (val_main_cst_8_apply _)
  have h42 : ∀ e : Fin 550000, val_main_v42 (F := Ideal) x1 (colIdx e) = ends 1 x1 e := fun e => by
    rw [val_main_v42_apply, col42, dst_eq]
  have hf : (Finset.univ.filter fun e : Fin 550000 => (val_main_v42 (F := Ideal) x1 (colIdx e)).toInt = (n.val : Int))
      = hit (ends 1 x1) n := Finset.filter_congr (fun e _ => by rw [h42 e])
  exact congrArg₂ (· + ·) h0 (Finset.sum_congr hf (fun e _ => msg_eq x0 x1 x2 e j))

theorem out_eq (n : Fin 50000) (j : Fin 128) : val_main_v47 (F := Ideal) x0 x1 x2 x3 (ix2 n j)
    = outR x0 x2 x3 (ends 0 x1) (ends 1 x1) n j := by
  have hb : idx_main_v44 (idx_main_v45 (ix2 n j)) = ix1 j := funext fun a => match a with | ⟨0, _⟩ => rfl
  rw [val_main_v47_apply, val_main_v46_apply, agg_eq, val_main_v45_apply, val_main_v44_apply, hb,
    val_main_call1_v0_apply, val_main_call1_cst_apply]
  rfl

end Cert.ReferenceIdeal.RefValue

end
-- ==== Proof.KernelBlocks.lean ====
import proofs.«175548_j73203422593428_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The kernel's output array as one function of its three input arrays

The kernel walks the 50000 rows of x in ten slabs of 5000 rows.  At slab t it multiplies the
slab of x by the whole 128 × 128 matrix W and scales row p of the product by the entry d(p, 0)
of the matching slab of the column d.  Over the extended reals nothing is rounded, so entry (p, j)
of the output slab is (∑ k, x(p,k) · W(k,j)) · d(p,0), and because the slabs are disjoint and fill the
array, the whole output is that same formula read at every row of the full arrays.
-/

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

/-- Entry (p, j) of the scaled product: (sum_k x(p,k)·W(k,j)) · d(p,0). -/
def scaledAt (x : S50000x128.Idx → EReal) (W : S128x128.Idx → EReal) (d : S50000x1.Idx → EReal) (p : Fin 50000) (j : Fin 128) : EReal :=
  (∑ k : Fin 128, x (ix2 p k) * W (ix2 k j)) * d (ix2 p (0 : Fin 1))

/-- The scaled product as an array: the entry at the index's two coordinates. -/
def scaled (x : S50000x128.Idx → EReal) (W : S128x128.Idx → EReal) (d : S50000x1.Idx → EReal) : S50000x128.Idx → EReal :=
  fun i => scaledAt x W d ⟨(i 0).val, idx2_lt0 i⟩ ⟨(i 1).val, idx2_lt1 i⟩

/-! ## The contraction of one slab: which operand entries a product entry reads -/

/-- The left operand is read on the product entry's own row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the column the contraction index names; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the row the contraction index names … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … on the product entry's own column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The slab product into a zero accumulator, entry by entry: the plain sum over the 128 inner positions. -/
theorem product_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-- The column slab spread across the 128 lanes: every lane of row p reads d(p, 0). -/
theorem spread_apply (v : FVec Ideal S5000x1 .f32) (p : Fin 5000) (q : Fin 128) :
    broadcastTo S5000x128 (shapeCast S5000x1 v shapeCasts_S5000x1_S5000x1) broadcasts_S5000x1_S5000x128 (ix2 p q) = v (ix2 p (0 : Fin 1)) := by
  rw [shapeCast_self]
  refine broadcastTo_apply v broadcasts_S5000x1_S5000x128 (ix2 p q) (ix2 p (0 : Fin 1)) fun ax => ?_
  match ax with
  | ⟨0, _⟩ => rfl
  | ⟨1, _⟩ => rfl

/-- What the body stores at entry (p, q) of its slab, from the three slabs it loaded. -/
theorem stored_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  refine (mulf_apply _ _ (ix2 p q)).trans ?_
  refine congrArg₂ (· * ·) ((product_apply _ _ p q).trans ?_) (spread_apply x2 p q)
  rfl

/-! ## From the slabs to the whole arrays -/

variable (m : (ℓ : Loc nD τ sig) → Buf (Elt Ideal) ℓ)

theorem origin : (![0, 0] : Fin 2 → Nat) = fun _ => 0 := funext fun a => by fin_cases a <;> rfl

/-- Where the slabs sit: at grid point t the slabs of x, of d and of the output all start at row block
    number t (and at column block 0), while W is always taken whole. -/
theorem slab_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) ≤ 9
    ∧ win0_3.index t (1 : Fin 2) = 0 :=
  (by decide +kernel : ∀ t : Fin grid0.N, _)

/-- Every one of the ten row blocks is some grid point's. -/
theorem slab_onto : ∀ q0 : Fin 10, ∃ t : Fin cfg0.N, win0_3.index t = ![q0.val, 0] :=
  (by decide +kernel : ∀ q0 : Fin 10, ∃ t : Fin grid0.N, win0_3.index t = ![q0.val, 0])

/-- Entry (p, k) of the slab of x at point t is x at the row the output slab's entry (p, q) lands on. -/
theorem read_x (c : Dev nD) (t : Fin cfg0.N) (p : Fin 5000) (k q : Fin 128) :
    iblk m c 0 t (ix2 p k)
      = V m c main_arg0 (ix2 (⟨((((cfg0.win 3).blk t).view.emb (ix2 p q)) 0).val, idx2_lt0 _⟩ : Fin 50000) k) := by
  obtain ⟨e0, e1, e2, e3, e4, e5, e6, e7⟩ := slab_facts t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 5000 + 1 * p.val = win0_3.index t (0 : Fin 2) * 5000 + 1 * p.val; omega
  | ⟨1, _⟩ => show win0_0.index t (1 : Fin 2) * 128 + 1 * k.val = k.val; omega

/-- The slab of W is W itself. -/
theorem read_W (c : Dev nD) (t : Fin cfg0.N) (k q : Fin 128) :
    iblk m c 1 t (ix2 k q) = V m c main_arg2 (ix2 k q) := by
  obtain ⟨e0, e1, e2, e3, e4, e5, e6, e7⟩ := slab_facts t
  show V m c main_arg2 (((cfg0.win 1).blk t).view.emb (ix2 k q)) = V m c main_arg2 _
  refine congrArg (V m c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry (p, 0) of the slab of d at point t is d at the row the output slab's entry (p, q) lands on. -/
theorem read_d (c : Dev nD) (t : Fin cfg0.N) (p : Fin 5000) (q : Fin 128) :
    iblk m c 2 t (ix2 p (0 : Fin 1))
      = V m c main_v14 (ix2 (⟨((((cfg0.win 3).blk t).view.emb (ix2 p q)) 0).val, idx2_lt0 _⟩ : Fin 50000) (0 : Fin 1)) := by
  obtain ⟨e0, e1, e2, e3, e4, e5, e6, e7⟩ := slab_facts t
  show V m c main_v14 (((cfg0.win 2).blk t).view.emb (ix2 p (0 : Fin 1))) = V m c main_v14 _
  refine congrArg (V m c main_v14) (funext fun a => Fin.ext ?_)
  match a with
  | ⟨0, _⟩ => show win0_2.index t (0 : Fin 2) * 5000 + 1 * p.val = win0_3.index t (0 : Fin 2) * 5000 + 1 * p.val; omega
  | ⟨1, _⟩ => show win0_2.index t (1 : Fin 2) * 1 + 1 * 0 = 0; omega

/-- The column an output slab's entry (p, q) lands on is q. -/
theorem out_col (t : Fin cfg0.N) (p : Fin 5000) (q : Fin 128) :
    (⟨((((cfg0.win 3).blk t).view.emb (ix2 p q)) 1).val, idx2_lt1 _⟩ : Fin 128) = q := by
  obtain ⟨e0, e1, e2, e3, e4, e5, e6, e7⟩ := slab_facts t
  apply Fin.ext
  show win0_3.index t (1 : Fin 2) * 128 + 1 * q.val = q.val
  omega

/-- What grid point t writes back is slab t of the scaled product of the whole arrays. -/
theorem flushed_eq (c : Dev nD) (t : Fin cfg0.N) :
    (dats (F := Ideal) m 0 c).flushed 3 t
      = ((cfg0.win 3).blk t).view.read (Elt Ideal) (scaled (V m c main_arg0) (V m c main_arg2) (V m c main_v14)) := by
  show (cfg0.win 3).cut (grid0.coords t) ((dats m 0 c).after 3 t) = _
  rw [after0_3]
  unfold out0_3
  rw [View.canon_unit_zero origin]
  simp only [View.ld_unit_zero (S := S5000x128) origin, View.ld_unit_zero (S := S128x128) origin, View.ld_unit_zero (S := S5000x1) origin]
  funext y
  obtain ⟨p, q, rfl⟩ : ∃ (p : Fin 5000) (q : Fin 128), y = ix2 p q := ⟨y 0, y 1, eq_ix2 y⟩
  show k0_pay1 (iblk m c 0 t) (iblk m c 1 t) (iblk m c 2 t) (ix2 p q)
    = scaledAt (V m c main_arg0) (V m c main_arg2) (V m c main_v14)
        ⟨((((cfg0.win 3).blk t).view.emb (ix2 p q)) 0).val, idx2_lt0 _⟩ ⟨((((cfg0.win 3).blk t).view.emb (ix2 p q)) 1).val, idx2_lt1 _⟩
  refine (stored_apply (iblk m c 0 t) (iblk m c 1 t) (iblk m c 2 t) p q).trans ?_
  rw [out_col t p q]
  unfold scaledAt
  refine congrArg₂ (· * ·) (Finset.sum_congr rfl fun k _ => ?_) (read_d m c t p q)
  exact congrArg₂ (· * ·) (read_x m c t p k q) (read_W m c t k q)

/-- An index of the output array is in point t's slab iff each coordinate is in the slab's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- The ten slabs fill the array: row r is in slab r / 5000. -/
theorem cover (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  obtain ⟨t, ht⟩ := slab_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the run is the scaled product of the three arrays as the region finds them. -/
theorem final3 (m : (ℓ : Loc nD τ sig) → Buf (Elt Ideal) ℓ) (c : Dev nD) :
    (dats (F := Ideal) m 0 c).arrAt 3 cfg0.N = scaled (V m c main_arg0) (V m c main_arg2) (V m c main_v14) :=
  (dats m 0 c).arrAt_eq_of_cover 3 (scaled (V m c main_arg0) (V m c main_arg2) (V m c main_v14)) (fun t _ => flushed_eq m c t) cover

end Cert.KernelIdeal.Blocks

end
-- ==== Proof.KernelTail.lean ====
/-
  The kernel program's host side, as functions of arrays, read at an entry.

  Before the pallas_call the host builds the edge list's two ends (`srcOf`, `dstOf`) and the normalizer column
  (`dcolOf`: the reciprocal square root of the degree, the degree a scatter-add of ones at the target ends, clamped
  below by one, as a `[50000, 1]` column). After it (`tail`) the host picks the rows of the call's result at the wrapped
  and clamped source ends, adds them up at the target ends, scales row `n` by the column's entry `n`, adds the
  bias and takes the maximum with zero. `tail_apply` reads all of that at entry `(n, j)` for ANY result array of the
  call; `dcol_apply` reads the column as the first spelling of the normalizer (`Graph.dinvK`).
-/
import proofs.«175548_j73203422593428_2_alg».proof.KernelIdeal
import proofs.«175548_j73203422593428_2_alg».proof.Proof.Gen.KernelIdeal
import proofs.«175548_j73203422593428_2_alg».proof.Proof.LibSegment
import proofs.«175548_j73203422593428_2_alg».proof.Proof.Graph
import proofs.«175548_j73203422593428_2_alg».proof.Proof.Ends
import Idealize.ShloMosaic.Lib.Pipeline.Value

noncomputable section

open scoped BigOperators

namespace Cert.KernelIdeal.Tail

open Cert.KernelIdeal Cert.KernelIdeal.Facts₀
open Idealize.ShloMosaic Idealize.ShloMosaic.ValueIdx Cert.LibSegment Cert.Graph Cert.Ends

/-! ## The host side as functions -/

/-- The source ends: row 0 of the edge array, then the node numbering. -/
def srcOf (ei : IVec S2x500000 32) : IVec S550000 32 :=
  concatenate S550000 0 [⟨S500000, shapeCast S500000 (extractStridedSlice S1x500000 ![0, 0] ei slices_S2x500000_S1x500000_0_0)
    shapeCasts_S1x500000_S500000⟩, ⟨S50000, iotaInDim S50000 32 0⟩] concatenates_S500000_S50000_S550000_d0

/-- The target ends: row 1 of the edge array, then the node numbering. -/
def dstOf (ei : IVec S2x500000 32) : IVec S550000 32 :=
  concatenate S550000 0 [⟨S500000, shapeCast S500000 (extractStridedSlice S1x500000 ![1, 0] ei slices_S2x500000_S1x500000_1_0)
    shapeCasts_S1x500000_S500000⟩, ⟨S50000, iotaInDim S50000 32 0⟩] concatenates_S500000_S50000_S550000_d0

/-- The degree: ones added up at the target ends. -/
def degOf (ei : IVec S2x500000 32) : FVec Ideal S50000 .f32 :=
  Host.scatterAdd (F := Ideal) scatter_S50000_S550000x1_S550000_n_0_0_1
    (broadcastInDim S50000 ![] bcast_S_S50000 (constant (F := Ideal) S_ .f32 0x00000000#32))
    (broadcastInDim S550000x1 ![0] bcast_S550000_S550000x1_0 (dstOf ei))
    (broadcastInDim S550000 ![] bcast_S_S550000 (constant (F := Ideal) S_ .f32 0x3F800000#32))

/-- The normalizer column. -/
def dcolOf (ei : IVec S2x500000 32) : FVec Ideal S50000x1 .f32 :=
  shapeCast S50000x1 (Host.rsqrt (F := Ideal) (maximumf (degOf ei)
    (broadcastInDim S50000 ![] bcast_S_S50000 (constant (F := Ideal) S_ .f32 0x3F800000#32)))) shapeCasts_S50000_S50000x1

/-- The wrapped source words. -/
def wrapped (v3 : IVec S550000 32) : IVec S550000 32 :=
  select (cmpi .slt v3 (broadcastInDim S550000 ![] bcast_S_S550000 (constantI S_ 32 0#32)))
    (addi v3 (broadcastInDim S550000 ![] bcast_S_S550000 (constantI S_ 32 50000#32))) v3

/-- The host operations after the call, of the call's result `A15`, the column `A14`, both ends and the bias. -/
def tail (A15 : FVec Ideal S50000x128 .f32) (A14 : FVec Ideal S50000x1 .f32) (v3 v6 : IVec S550000 32)
    (b : FVec Ideal S128 .f32) : FVec Ideal S50000x128 .f32 :=
  maximumf
    (addf
      (mulf (broadcastInDim S50000x128 ![0, 1] bcast_S50000x1_S50000x128_0_1 A14)
        (Host.scatterAdd (F := Ideal) scatter_S50000x128_S550000x1_S550000x128_1_0_0_1
          (broadcastInDim S50000x128 ![] bcast_S_S50000x128 (constant (F := Ideal) S_ .f32 0x00000000#32))
          (broadcastInDim S550000x1 ![0] bcast_S550000_S550000x1_0 v6)
          (Host.gather gather_S50000x128_S550000x1_S550000x128_1_0_n_n_0_1_1128 A15
            (broadcastInDim S550000x1 ![0] bcast_S550000_S550000x1_0 (wrapped v3)))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-! ## The layout operations at an index -/

/-- A column of per-edge words made from a flat array, at `(e, 0)`. -/
theorem col_apply {α : Type} (v : S550000.Idx → α) (e : Fin 550000) :
    broadcastInDim S550000x1 ![0] bcast_S550000_S550000x1_0 v (colIdx e) = v (ix1 e) :=
  broadcastInDim_apply _ bcast_S550000_S550000x1_0 v (colIdx e) (ix1 e) (fun a => match a with
    | ⟨0, _⟩ => by show e.val = if (550000 : Nat) = 1 then 0 else e.val; rw [if_neg (by decide)])

theorem splat_nodes (w : BitVec 32) (p : Fin 50000) :
    broadcastInDim S50000 ![] bcast_S_S50000 (constant (F := Ideal) S_ .f32 w) (ix1 p) = Ideal.ofBits .f32 w :=
  broadcastInDim_apply _ bcast_S_S50000 _ (ix1 p) ix0 (fun a => a.elim0)

theorem splat_edges (w : BitVec 32) (e : Fin 550000) :
    broadcastInDim S550000 ![] bcast_S_S550000 (constant (F := Ideal) S_ .f32 w) (ix1 e) = Ideal.ofBits .f32 w :=
  broadcastInDim_apply _ bcast_S_S550000 _ (ix1 e) ix0 (fun a => a.elim0)

theorem splat_edges_int (w : BitVec 32) (e : Fin 550000) :
    broadcastInDim S550000 ![] bcast_S_S550000 (constantI S_ 32 w) (ix1 e) = w :=
  broadcastInDim_apply _ bcast_S_S550000 _ (ix1 e) ix0 (fun a => a.elim0)

theorem splat_entries (w : BitVec 32) (i : S50000x128.Idx) :
    broadcastInDim S50000x128 ![] bcast_S_S50000x128 (constant (F := Ideal) S_ .f32 w) i = Ideal.ofBits .f32 w :=
  broadcastInDim_apply _ bcast_S_S50000x128 _ i ix0 (fun a => a.elim0)

/-! ## The ends, the degree, the column -/

theorem src_apply (ei : IVec S2x500000 32) (e : Fin 550000) : srcOf ei (ix1 e) = ends 0 ei e :=
  ends_eq 0 (by decide) ei _ _ _ e

theorem dst_apply (ei : IVec S2x500000 32) (e : Fin 550000) : dstOf ei (ix1 e) = ends 1 ei e :=
  ends_eq 1 (by decide) ei _ _ _ e

theorem deg_apply (ei : IVec S2x500000 32) (p : Fin 50000) : degOf ei (ix1 p) = deg (ends 1 ei) p := by
  unfold degOf
  refine (hostScatterAdd_entries_apply scatter_S50000_S550000x1_S550000_n_0_0_1_wf _ _ _ p).trans ?_
  have hf : (Finset.univ.filter fun e : Fin 550000 =>
      (broadcastInDim S550000x1 ![0] bcast_S550000_S550000x1_0 (dstOf ei) (colIdx e)).toInt = (p.val : Int))
      = hit (ends 1 ei) p := Finset.filter_congr (fun e _ => by rw [col_apply, dst_apply])
  unfold deg
  exact congrArg₂ (· + ·) (splat_nodes _ p) (Finset.sum_congr hf (fun e _ => splat_edges _ e))

theorem dcol_apply (ei : IVec S2x500000 32) (p : Fin 50000) : dcolOf ei (ix2 p (0 : Fin 1)) = dinvK (ends 1 ei) p := by
  unfold dcolOf
  refine (shapeCast_apply _ shapeCasts_S50000_S50000x1 (ix2 p (0 : Fin 1)) (ix1 p) ?_).trans ?_
  · rewrite [Shape.rowMajor_val_two, Shape.rowMajor_val_one]
    show p.val = p.val * 1 + 0
    omega
  · have h1 : Host.rsqrt (F := Ideal) (maximumf (degOf ei)
          (broadcastInDim S50000 ![] bcast_S_S50000 (constant (F := Ideal) S_ .f32 0x3F800000#32))) (ix1 p)
        = FloatOps.hostUnary .rsqrt (FloatOps.maximumf (degOf ei (ix1 p))
            (broadcastInDim S50000 ![] bcast_S_S50000 (constant (F := Ideal) S_ .f32 0x3F800000#32) (ix1 p))) := rfl
    rw [h1, deg_apply, splat_nodes]
    unfold dinvK
    simp only [Ideal.hostUnary_rsqrt_def, Ideal.maximumf_def]

theorem wrapped_apply (v3 : IVec S550000 32) (e : Fin 550000) : wrapped v3 (ix1 e) = wrap (v3 (ix1 e)) := by
  show Scalar.select (IntOp.cmpi .slt (v3 (ix1 e)) (broadcastInDim S550000 ![] bcast_S_S550000 (constantI S_ 32 0#32) (ix1 e)))
      (IntOp.addi (v3 (ix1 e)) (broadcastInDim S550000 ![] bcast_S_S550000 (constantI S_ 32 50000#32) (ix1 e))) (v3 (ix1 e)) = _
  rw [splat_edges_int, splat_edges_int]
  rfl

/-! ## The tail at an entry -/

theorem tail_apply (A15 : FVec Ideal S50000x128 .f32) (A14 : FVec Ideal S50000x1 .f32) (v3 v6 : IVec S550000 32)
    (b : FVec Ideal S128 .f32) (n : Fin 50000) (j : Fin 128) :
    tail A15 A14 v3 v6 b (ix2 n j)
      = max (A14 (ix2 n (0 : Fin 1)) * (Ideal.ofBits .f32 0x00000000#32
          + ∑ e ∈ Finset.univ.filter (fun e : Fin 550000 => (v6 (ix1 e)).toInt = (n.val : Int)),
              A15 (ix2 (rowOf (v3 (ix1 e))) j)) + b (ix1 j)) (Ideal.ofBits .f32 0x00000000#32) := by
  have hD : broadcastInDim S50000x128 ![0, 1] bcast_S50000x1_S50000x128_0_1 A14 (ix2 n j) = A14 (ix2 n (0 : Fin 1)) :=
    broadcastInDim_apply _ bcast_S50000x1_S50000x128_0_1 A14 (ix2 n j) (ix2 n (0 : Fin 1)) (fun a => match a with
      | ⟨0, _⟩ => by show n.val = if (50000 : Nat) = 1 then 0 else n.val; rw [if_neg (by decide)]
      | ⟨1, _⟩ => by show 0 = if (1 : Nat) = 1 then 0 else j.val; rw [if_pos rfl])
  have hB : broadcastInDim S50000x128 ![0, 1] bcast_S1x128_S50000x128_0_1
      (broadcastInDim S1x128 ![1] bcast_S128_S1x128_1 b) (ix2 n j) = b (ix1 j) :=
    (broadcastInDim_apply _ bcast_S1x128_S50000x128_0_1 _ (ix2 n j) (ix2 (0 : Fin 1) j) (fun a => match a with
      | ⟨0, _⟩ => by show 0 = if (1 : Nat) = 1 then 0 else n.val; rw [if_pos rfl]
      | ⟨1, _⟩ => by show j.val = if (128 : Nat) = 1 then 0 else j.val; rw [if_neg (by decide)])).trans
    (broadcastInDim_apply _ bcast_S128_S1x128_1 b (ix2 (0 : Fin 1) j) (ix1 j) (fun a => match a with
      | ⟨0, _⟩ => by show j.val = if (128 : Nat) = 1 then 0 else j.val; rw [if_neg (by decide)]))
  have hG : ∀ e : Fin 550000, Host.gather gather_S50000x128_S550000x1_S550000x128_1_0_n_n_0_1_1128 A15
      (broadcastInDim S550000x1 ![0] bcast_S550000_S550000x1_0 (wrapped v3)) (ix2 e j)
        = A15 (ix2 (rowOf (v3 (ix1 e))) j) := fun e => by
    refine (gather_rows_apply (Nat.succ_pos _) gather_S50000x128_S550000x1_S550000x128_1_0_n_n_0_1_1128_wf _ _ e j).trans ?_
    rw [col_apply, wrapped_apply]
    rfl
  have hS : Host.scatterAdd (F := Ideal) scatter_S50000x128_S550000x1_S550000x128_1_0_0_1
      (broadcastInDim S50000x128 ![] bcast_S_S50000x128 (constant (F := Ideal) S_ .f32 0x00000000#32))
      (broadcastInDim S550000x1 ![0] bcast_S550000_S550000x1_0 v6)
      (Host.gather gather_S50000x128_S550000x1_S550000x128_1_0_n_n_0_1_1128 A15
        (broadcastInDim S550000x1 ![0] bcast_S550000_S550000x1_0 (wrapped v3))) (ix2 n j)
      = Ideal.ofBits .f32 0x00000000#32
        + ∑ e ∈ Finset.univ.filter (fun e : Fin 550000 => (v6 (ix1 e)).toInt = (n.val : Int)),
            A15 (ix2 (rowOf (v3 (ix1 e))) j) := by
    refine (hostScatterAdd_rows_apply scatter_S50000x128_S550000x1_S550000x128_1_0_0_1_wf _ _ _ n j).trans ?_
    exact congrArg₂ (· + ·) (splat_entries _ _)
      (Finset.sum_congr (Finset.filter_congr (fun e _ => by rw [col_apply])) (fun e _ => hG e))
  show max (broadcastInDim S50000x128 ![0, 1] bcast_S50000x1_S50000x128_0_1 A14 (ix2 n j)
      * Host.scatterAdd (F := Ideal) scatter_S50000x128_S550000x1_S550000x128_1_0_0_1
          (broadcastInDim S50000x128 ![] bcast_S_S50000x128 (constant (F := Ideal) S_ .f32 0x00000000#32))
          (broadcastInDim S550000x1 ![0] bcast_S550000_S550000x1_0 v6)
          (Host.gather gather_S50000x128_S550000x1_S550000x128_1_0_n_n_0_1_1128 A15
            (broadcastInDim S550000x1 ![0] bcast_S550000_S550000x1_0 (wrapped v3))) (ix2 n j)
      + broadcastInDim S50000x128 ![0, 1] bcast_S1x128_S50000x128_0_1
          (broadcastInDim S1x128 ![1] bcast_S128_S1x128_1 b) (ix2 n j))
    (broadcastInDim S50000x128 ![] bcast_S_S50000x128 (constant (F := Ideal) S_ .f32 0x00000000#32) (ix2 n j)) = _
  rw [hD, hB, hS, splat_entries]

end Cert.KernelIdeal.Tail

end
-- ==== Proof.KernelValue.lean ====
/-
  The kernel program's result as the first formula of the graph convolution (`Graph.outK`), and its run.

  The region leaves its output array at the scaled product `(x · W) · d` of the arrays it was entered with
  (the blockwise closed form), the column `d` and the other arrays untouched; the host operations after the region
  then compute `Tail.tail` of those arrays, whose arguments the host operations before the region computed from the
  edge array (`Tail.srcOf`, `Tail.dstOf`, `Tail.dcolOf`). Read at an entry, that is `Graph.outK`.
-/
import proofs.«175548_j73203422593428_2_alg».proof.Proof.Gen.KernelIdeal.Frame
import proofs.«175548_j73203422593428_2_alg».proof.Proof.KernelBlocks
import proofs.«175548_j73203422593428_2_alg».proof.Proof.KernelTail
import Idealize.ShloMosaic.Lib.StableHlo.Run

noncomputable section

open scoped BigOperators

namespace Cert.KernelIdeal.KValue

open Cert.KernelIdeal Cert.KernelIdeal.Gen Cert.KernelIdeal.Tail Cert.KernelIdeal.Blocks
open Idealize.ShloMosaic Idealize.ShloMosaic.ValueIdx Idealize.ShloMosaic.TcCoe Idealize.SL.Sem Idealize.ShloMosaic.StableHlo
open Cert.LibSegment Cert.Graph Cert.Ends

variable (m : (ℓ : Loc nD τ sig) → Buf (Elt Ideal) ℓ) (ρ : Dev nD → PrngReg)

/-! ## The scaled product through the tail, at an entry -/

theorem tail_scaled (x : FVec Ideal S50000x128 .f32) (W : FVec Ideal S128x128 .f32) (b : FVec Ideal S128 .f32)
    (ei : IVec S2x500000 32) (n : Fin 50000) (j : Fin 128) :
    tail (scaled x W (dcolOf ei)) (dcolOf ei) (srcOf ei) (dstOf ei) b (ix2 n j)
      = outK x W b (ends 0 ei) (ends 1 ei) n j := by
  have hs : ∀ e : Fin 550000, scaled x W (dcolOf ei) (ix2 (rowOf (srcOf ei (ix1 e))) j)
      = prod x W (rowOf (ends 0 ei e)) j * dinvK (ends 1 ei) (rowOf (ends 0 ei e)) := fun e => by
    rw [src_apply]
    show scaledAt x W (dcolOf ei) (rowOf (ends 0 ei e)) j = _
    unfold scaledAt
    rw [dcol_apply]
    rfl
  have hf : (Finset.univ.filter fun e : Fin 550000 => (dstOf ei (ix1 e)).toInt = (n.val : Int)) = hit (ends 1 ei) n :=
    Finset.filter_congr (fun e _ => by rw [dst_apply])
  rw [tail_apply, dcol_apply]
  unfold outK
  exact congrArg (fun s => max (dinvK (ends 1 ei) n * (Ideal.ofBits .f32 0x00000000#32 + s) + b (ix1 j))
    (Ideal.ofBits .f32 0x00000000#32)) (Finset.sum_congr hf (fun e _ => hs e))

/-- The tail of equal arrays is equal. -/
theorem tail_congr {A15 A15' : FVec Ideal S50000x128 .f32} {A14 A14' : FVec Ideal S50000x1 .f32} {v3 v3' v6 v6' : IVec S550000 32}
    {b b' : FVec Ideal S128 .f32} (h1 : A15 = A15') (h2 : A14 = A14') (h3 : v3 = v3') (h4 : v6 = v6') (h5 : b = b') :
    tail A15 A14 v3 v6 b = tail A15' A14' v3' v6' b' := by
  rw [h1, h2, h3, h4, h5]

/-! ## The host operations before and after the region -/

/-- The host operations after the region, from any contents. -/
theorem tail_after (Wc : Valuation τ sig (Elt Ideal)) :
    (StableHlo.after (hostOps1 ++ hostOps1_1) Wc (Proc.devRef .tc main_v31) : S50000x128.Idx → EReal)
      = tail (Wc (Proc.devRef .tc main_v15)) (Wc (Proc.devRef .tc main_v14)) (Wc (Proc.devRef .tc main_v3))
          (Wc (Proc.devRef .tc main_v6)) (Wc (Proc.devRef .tc main_arg3)) := by
  simp only [hostOps1, hostOps1_1, List.cons_append, List.nil_append]
  after_results_simp
  rfl

theorem pre_v3 (c : Dev nD) : (V m c main_v3 : S550000.Idx → BitVec 32) = srcOf (m ((c : Thread nD τ).loc main_arg1)) := by
  show StableHlo.after hostOps0 (fun b => m (c, b)) (Proc.devRef .tc main_v3) = _
  after_results
  rfl

theorem pre_v6 (c : Dev nD) : (V m c main_v6 : S550000.Idx → BitVec 32) = dstOf (m ((c : Thread nD τ).loc main_arg1)) := by
  show StableHlo.after hostOps0 (fun b => m (c, b)) (Proc.devRef .tc main_v6) = _
  after_results
  rfl

theorem pre_v14 (c : Dev nD) : (V m c main_v14 : S50000x1.Idx → EReal) = dcolOf (m ((c : Thread nD τ).loc main_arg1)) := by
  show StableHlo.after hostOps0 (fun b => m (c, b)) (Proc.devRef .tc main_v14) = _
  after_results
  rfl

/-! ## The result buffer after the whole program -/

/-- The result as one function of the argument arrays. -/
def result (c : Dev nD) : S50000x128.Idx → EReal := fun i =>
  outK (m ((c : Thread nD τ).loc main_arg0)) (m ((c : Thread nD τ).loc main_arg2)) (m ((c : Thread nD τ).loc main_arg3))
    (ends 0 (m ((c : Thread nD τ).loc main_arg1))) (ends 1 (m ((c : Thread nD τ).loc main_arg1)))
    ⟨(i 0).val, idx2_lt0 i⟩ ⟨(i 1).val, idx2_lt1 i⟩

theorem value (c : Dev nD) :
    Pipeline.afterTail₀ cfgs (dats (F := Ideal) m) 0 (V0 m) [hostOps1, hostOps1_1] c main_v31 = result m c := by
  unfold Pipeline.afterTail₀
  simp only [List.flatten_cons, List.flatten_nil, List.append_nil]
  refine (tail_after _).trans ?_
  have e15 : Pipeline.withArrays spec0 c (V0 m c) (fun w => (dats (F := Ideal) m 0 c).arrAt w cfg0.N)
        (Proc.devRef .tc main_v15)
      = scaled (m ((c : Thread nD τ).loc main_arg0)) (m ((c : Thread nD τ).loc main_arg2))
          (dcolOf (m ((c : Thread nD τ).loc main_arg1))) :=
    (Pipeline.withArrays_arr spec0 launch0.win.arr_inj c (V0 m c) (fun w => (dats (F := Ideal) m 0 c).arrAt w cfg0.N) 3).trans
      ((final3 m c).trans (by rw [V_main_arg0 m c, V_main_arg2 m c, pre_v14 m c]))
  have e14 : Pipeline.withArrays spec0 c (V0 m c) (fun w => (dats (F := Ideal) m 0 c).arrAt w cfg0.N)
        (Proc.devRef .tc main_v14) = dcolOf (m ((c : Thread nD τ).loc main_arg1)) :=
    (Pipeline.withArrays_arr spec0 launch0.win.arr_inj c (V0 m c) (fun w => (dats (F := Ideal) m 0 c).arrAt w cfg0.N) 2).trans
      (((dats (F := Ideal) m 0 c).arrAt_in 2 rfl _).trans ((A_eq m c 2).trans (pre_v14 m c)))
  have e3 : Pipeline.withArrays spec0 c (V0 m c) (fun w => (dats (F := Ideal) m 0 c).arrAt w cfg0.N)
        (Proc.devRef .tc main_v3) = srcOf (m ((c : Thread nD τ).loc main_arg1)) :=
    (Pipeline.withArrays_of_ne spec0 c (V0 m c) (fun w => (dats (F := Ideal) m 0 c).arrAt w cfg0.N) main_v3
      (by exact (by decide : ∀ w, Pipeline.arrRef spec0 w ≠ main_v3))).trans (pre_v3 m c)
  have e6 : Pipeline.withArrays spec0 c (V0 m c) (fun w => (dats (F := Ideal) m 0 c).arrAt w cfg0.N)
        (Proc.devRef .tc main_v6) = dstOf (m ((c : Thread nD τ).loc main_arg1)) :=
    (Pipeline.withArrays_of_ne spec0 c (V0 m c) (fun w => (dats (F := Ideal) m 0 c).arrAt w cfg0.N) main_v6
      (by exact (by decide : ∀ w, Pipeline.arrRef spec0 w ≠ main_v6))).trans (pre_v6 m c)
  have eb : Pipeline.withArrays spec0 c (V0 m c) (fun w => (dats (F := Ideal) m 0 c).arrAt w cfg0.N)
        (Proc.devRef .tc main_arg3) = m ((c : Thread nD τ).loc main_arg3) :=
    (Pipeline.withArrays_of_ne spec0 c (V0 m c) (fun w => (dats (F := Ideal) m 0 c).arrAt w cfg0.N) main_arg3
      (by exact (by decide : ∀ w, Pipeline.arrRef spec0 w ≠ main_arg3))).trans (V_main_arg3 m c)
  refine (tail_congr e15 e14 e3 e6 eb).trans ?_
  funext i
  obtain ⟨n, j, rfl⟩ : ∃ (n : Fin 50000) (j : Fin 128), i = ix2 n j := ⟨i 0, i 1, eq_ix2 i⟩
  exact tail_scaled _ _ _ _ n j

/-! ## The run -/

/-- Every weakly fair execution of the program ends with the result buffer at `result` and the arguments as launched:
    the frame run, with the result buffer read through the host operations after the region. -/
theorem run : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v31 (Pipeline.mem_restRefs_of main_v31 (by decide) (by decide))).trans (value m c),
      ((h c).1 0).trans (((dats (F := Ideal) m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats (F := Ideal) m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.KValue

end
-- ==== Proof.Finite.lean ====
import proofs.«175548_j73203422593428_2_alg».proof.Pre_finite_inputs
import proofs.«175548_j73203422593428_2_alg».proof.Proof.Gen.Pre_finite_inputs
import Idealize.ShloMosaic.PureOps.Ideal
import Idealize.ShloMosaic.Lib.ValueIdx
import Idealize.ShloMosaic.Lib.ReduceAll

/-!
# The finiteness precondition, decoded

The precondition is the conjunction of three tests, one per floating-point input: every entry's absolute
value is strictly below +∞.  Over the extended reals an entry with |v| < +∞ is neither of the two
infinities, hence a real number.  Only the tests of x and of W are needed downstream.
-/

noncomputable section

namespace Cert.Finite

open Idealize.ShloMosaic Cert.Pre_finite_inputs

/-- The scalar shape has exactly one index. -/
instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max v (-v) is strictly below +∞ is a real number. -/
theorem real_of_abs_lt_inf (v : EReal)
    (h : Ideal.cmp .olt (max v (-v)) (Ideal.ofBits .f32 0x7F800000#32) = 1#1) : ∃ r : ℝ, v = (r : EReal) := by
  rw [inf_word] at h
  induction v using EReal.rec with
  | bot => simp [Ideal.cmp] at h
  | coe r => exact ⟨r, rfl⟩
  | top => simp [Ideal.cmp] at h

/-- Under the precondition every entry of x and every entry of W is a real number. -/
theorem real_of_pre [Cert.Pre_finite_inputs.Facts] (x : FVec Ideal S50000x128 .f32) (ei : IVec S2x500000 32) (W : FVec Ideal S128x128 .f32) (b : FVec Ideal S128 .f32)
    (h : Cert.Pre_finite_inputs.fn (F := Ideal) x ei W b = fun _ => 1#1) :
    (∀ i, ∃ r : ℝ, x i = (r : EReal)) ∧ (∀ i, ∃ r : ℝ, W i = (r : EReal)) := by
  have e := congrFun h ValueIdx.ix0
  dsimp only [Cert.Pre_finite_inputs.fn] at e
  simp only [andi] at e
  rw [IntOp.andi_eq_one, IntOp.andi_eq_one] at e
  obtain ⟨⟨hx, hW⟩, -⟩ := e
  refine ⟨fun i => ?_, fun i => ?_⟩
  · exact real_of_abs_lt_inf (x i) (Host.reduce_andi_all _ _ _ _ _ hx i)
  · exact real_of_abs_lt_inf (W i) (Host.reduce_andi_all _ _ _ _ _ hW i)

end Cert.Finite

end
-- ==== Proof.lean ====
/-
  A graph convolution with self-loops and symmetric degree normalization: a kernel program against its reference,
  at the exact extended reals.

  Both programs compute, for 50000 nodes with 128 features and 550000 edges (500000 given, one self-loop per node),
    out = relu ( Σ_{e → n} (x · W)[src e] · dinv[src e] · dinv[n]  +  b ),     dinv = 1 / sqrt (in-degree).
  The reference weights every message by `dinv[src e] · dinv[dst e]` before adding the messages up at their targets
  (`Graph.outR`). The kernel program folds `dinv[src]` into a pallas_call that computes `(x · W) · dinv` row by row,
  adds the picked rows up at the targets, and multiplies row `n` of the aggregate by `dinv[n]` afterwards
  (`Graph.outK`); it also guards the degree by `max (deg, 1)` where the reference tests `deg > 0`. The two agree
  because every node has its self-loop (every degree is at least one) and, the entries of `x` and `W` being finite,
  every term is a real number, so the factor `dinv[n]` — constant over the edges into `n` — moves across the sum
  (`Graph.outK_eq_outR`).

  The kernel program's run is the frame run of its one region with the result read through the host operations after
  the region (`KValue.run`); the reference's run is its host operations read back one at a time (`RefValue.out_eq`);
  the picking and adding of rows at integer indices are read at an index in `LibSegment`. The ideal pass rewrote
  nothing, so the kernel program's idealization is its own text and there is nothing to preserve.
-/
import proofs.«175548_j73203422593428_2_alg».proof.Defs
import proofs.«175548_j73203422593428_2_alg».proof.Proof.Gen.Kernel
import proofs.«175548_j73203422593428_2_alg».proof.Proof.Gen.Kernel.Skeleton
import proofs.«175548_j73203422593428_2_alg».proof.Proof.Gen.Kernel.Launch
import proofs.«175548_j73203422593428_2_alg».proof.Proof.Gen.Kernel.Points
import proofs.«175548_j73203422593428_2_alg».proof.Proof.Gen.Kernel.Frame
import proofs.«175548_j73203422593428_2_alg».proof.Proof.Gen.KernelIdeal
import proofs.«175548_j73203422593428_2_alg».proof.Proof.Gen.KernelIdeal.Skeleton
import proofs.«175548_j73203422593428_2_alg».proof.Proof.Gen.KernelIdeal.Launch
import proofs.«175548_j73203422593428_2_alg».proof.Proof.Gen.KernelIdeal.Points
import proofs.«175548_j73203422593428_2_alg».proof.Proof.Gen.KernelIdeal.Frame
import proofs.«175548_j73203422593428_2_alg».proof.Proof.Gen.ReferenceIdeal
import proofs.«175548_j73203422593428_2_alg».proof.Proof.Gen.Pre_finite_inputs
import proofs.«175548_j73203422593428_2_alg».proof.Proof.RefRun
import proofs.«175548_j73203422593428_2_alg».proof.Proof.RefRead
import proofs.«175548_j73203422593428_2_alg».proof.Proof.RefValue
import proofs.«175548_j73203422593428_2_alg».proof.Proof.KernelValue
import proofs.«175548_j73203422593428_2_alg».proof.Proof.Finite
import proofs.«175548_j73203422593428_2_alg».proof.Proof.Graph
import proofs.«175548_j73203422593428_2_alg».proof.Proof.Ends
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the result buffer at the first formula of the arguments: the kernel program by its run,
    the reference by its run read as the second formula, which is the first wherever the float inputs are finite
    (every node's self-loop is an edge into it). -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v47_eq, (hagree c).1, (hagree c).2.1, (hagree c).2.2.1, (hagree c).2.2.2]
  funext i
  obtain ⟨n, j, rfl⟩ : ∃ (n : Fin 50000) (j : Fin 128), i = ix2 n j := ⟨i 0, i 1, eq_ix2 i⟩
  rw [Cert.ReferenceIdeal.RefValue.out_eq]
  obtain ⟨hx, hW⟩ := Cert.Finite.real_of_pre _ _ _ _ (hpre c)
  exact (Cert.Graph.outK_eq_outR _ _ _ _ _ hx hW
    (fun p => ⟨⟨500000 + p.val, by have := p.isLt; omega⟩,
      Finset.mem_filter.mpr ⟨Finset.mem_univ _, Cert.Ends.ends_loop 1 _ p⟩⟩) n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
